-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S64x64 : Shape := ⟨2, ![64, 64]⟩
abbrev S64 : Shape := ⟨1, ![64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S4x16x2048x64 .f32) (main_arg1 : FVec F S4x16x2048x64 .f32) (main_arg2 : FVec F S4x16x2048x64 .f32) (main_arg3 : FVec F S64x64 .f32) (main_arg4 : FVec F S64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S4x16x2048x64 : Shape := ⟨4, ![4, 16, 2048, 64]⟩
abbrev S64x64 : Shape := ⟨2, ![64, 64]⟩
abbrev S64 : Shape := ⟨1, ![64]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩
abbrev S1x64 : Shape := ⟨2, ![1, 64]⟩

abbrev nBuf : Space → Nat
  | .hbm => 10
  | .vmem => 10
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x64, .f32⟩
  | .hbm, ⟨4, _⟩ => ⟨S64, .f32⟩
  | .hbm, ⟨5, _⟩ => ⟨S64x2048x64, .f32⟩
  | .hbm, ⟨6, _⟩ => ⟨S64x2048x64, .f32⟩
  | .hbm, ⟨7, _⟩ => ⟨S64x2048x64, .f32⟩
  | .hbm, ⟨8, _⟩ => ⟨S64x2048x64, .f32⟩
  | .hbm, ⟨9, _⟩ => ⟨S4x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S64x64, .f32⟩
  | .local _ .vmem, ⟨7, _⟩ => ⟨S64, .f32⟩
  | .local _ .vmem, ⟨8, _⟩ => ⟨S1x1024x64, .f32⟩
  | .local _ .vmem, ⟨9, _⟩ => ⟨S1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x16x2048x64_S64x2048x64 : S4x16x2048x64.ShapeCasts S64x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  shapeCasts_S1024x64_S1x1024x64 : S1024x64.ShapeCasts S1x1024x64
  shapeCasts_S64x2048x64_S4x16x2048x64 : S64x2048x64.ShapeCasts S4x16x2048x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S1024x64_S64x64_S1024x64_1_1_0_0_n_n_wf : DotDims.WF S1024x64 S64x64 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .f32 = 32 ∨ (Rect.block (s := S64x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S64x2048x64.size a
  hwx0_5 : ∀ i : grid0.Coords, EltTy.bits .f32 = 32 ∨ (Rect.block (s := S64x2048x64) S1x1024x64.size (cc0_transform_5 i) (hinb0_5 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x64_S1024x64_1_1_0_0_n_n : DotDims S1024x64 S64x64 S1024x64 where
  lhsContracting := [1]
  rhsContracting := [1]
  lhsNonContracting := [0]
  rhsNonContracting := [0]
  lhsBatch := []
  rhsBatch := []
  wf := dot_S1024x64_S64x64_S1024x64_1_1_0_0_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S64x64 : Shape := ⟨2, ![64, 64]⟩
abbrev S64 : Shape := ⟨1, ![64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x1x64 : Shape := ⟨4, ![1, 1, 1, 64]⟩

abbrev nBuf : Space → Nat
  | .hbm => 28
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x64, .f32⟩
  | .hbm, ⟨4, _⟩ => ⟨S64, .f32⟩
  | .hbm, ⟨5, _⟩ => ⟨S4x16x2048x2048, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S_, .f32⟩
  | .hbm, ⟨10, _⟩ => ⟨S4x16x2048, .f32⟩
  | .hbm, ⟨11, _⟩ => ⟨S_, .f32⟩
  | .hbm, ⟨12, _⟩ => ⟨S4x16x2048, .f32⟩
  | .hbm, ⟨13, _⟩ => ⟨S4x16x2048, .f32⟩
  | .hbm, ⟨14, _⟩ => ⟨S4x16x2048x1, .f32⟩
  | .hbm, ⟨15, _⟩ => ⟨S4x16x2048x2048, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048, .f32⟩
  | .hbm, ⟨20, _⟩ => ⟨S4x16x2048x1, .f32⟩
  | .hbm, ⟨21, _⟩ => ⟨S4x16x2048x2048, .f32⟩
  | .hbm, ⟨22, _⟩ => ⟨S4x16x2048x2048, .f32⟩
  | .hbm, ⟨23, _⟩ => ⟨S4x16x2048x64, .f32⟩
  | .hbm, ⟨24, _⟩ => ⟨S4x16x2048x64, .f32⟩
  | .hbm, ⟨25, _⟩ => ⟨S1x1x1x64, .f32⟩
  | .hbm, ⟨26, _⟩ => ⟨S4x16x2048x64, .f32⟩
  | .hbm, ⟨27, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  bcast_S64_S1x1x1x64_3 : S64.BroadcastsInDim S1x1x1x64 (![3] : Fin 1 → Fin S1x1x1x64.rank)
  bcast_S1x1x1x64_S4x16x2048x64_0_1_2_3 : S1x1x1x64.BroadcastsInDim S4x16x2048x64 (![0, 1, 2, 3] : Fin 4 → Fin S4x16x2048x64.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x16x2048x64_S64x64_S4x16x2048x64_3_1_012_0_n_n_wf : DotDims.WF S4x16x2048x64 S64x64 S4x16x2048x64 [3] [1] [0, 1, 2] [0] [] []

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x16x2048x64_S64x64_S4x16x2048x64_3_1_012_0_n_n : DotDims S4x16x2048x64 S64x64 S4x16x2048x64 where
  lhsContracting := [3]
  rhsContracting := [1]
  lhsNonContracting := [0, 1, 2]
  rhsNonContracting := [0]
  lhsBatch := []
  rhsBatch := []
  wf := dot_S4x16x2048x64_S64x64_S4x16x2048x64_3_1_012_0_n_n_wf

class Facts : Prop extends Facts₀ where

variable [Facts]
-- ==== Proof.AttentionSpec.lean ====
/-
  The mathematics both programs compute, stated once over plain index types.

  One attention row: a query row `q` (64 numbers), the keys `Kh` and values `Vh` of its head (2048 rows of 64),
  the output projection `W` (64 × 64) and bias `Bv`. The scores of the row against every key are scaled by 1/8,
  shifted by their maximum and exponentiated (`wgt`), the weights are normalised by their sum (`den`) and average the
  values, and the average is projected: out e = Σ_d mix d · W e d + Bv e.

  The two programs differ in two places only. The reference scales the score after the contraction,
  (Σ_d q_d · K_kd) · (1/8), and divides every weight by the sum before averaging, Σ_k (w_k / den) · V_kd (`rowR`);
  the kernel scales the query first, Σ_d (q_d · (1/8)) · K_kd, and divides the unnormalised average once,
  (Σ_k w_k · V_kd) / den (`rowK`). The float words of 1/8 and of -∞ are kept as words: both programs carry the same ones.
-/
import Idealize.ShloMosaic.PureOps.Ideal
import Idealize.ShloMosaic.Lib.ValueIdx

noncomputable section

namespace Cert.Attention

open Idealize.ShloMosaic Idealize.ShloMosaic.ValueIdx

/-- The scale 1/√64 = 1/8, as the f32 word both programs print. -/
abbrev scale : EReal := Ideal.ofBits .f32 0x3E000000#32
/-- The value a row maximum starts from: the f32 word of -∞. -/
abbrev negInf : EReal := Ideal.ofBits .f32 0xFF800000#32

/-- The maximum of a row of scores (a fold of `max` from -∞ over the 2048 keys). -/
def rowMax (s : Fin 2048 → EReal) : EReal := (Finset.univ : Finset (Fin 2048)).fold max negInf s
/-- The unnormalised softmax weight of key `k`: exp (s k − max s). -/
def wgt (s : Fin 2048 → EReal) (k : Fin 2048) : EReal := Ideal.exp (s k - rowMax s)
/-- The softmax denominator: the sum of the weights. -/
def den (s : Fin 2048 → EReal) : EReal := ∑ k : Fin 2048, wgt s k

/-- The reference's score: contract, then scale. -/
def scoreR (q : Fin 64 → EReal) (Kh : Fin 2048 → Fin 64 → EReal) (k : Fin 2048) : EReal :=
  (∑ d : Fin 64, q d * Kh k d) * scale
/-- The kernel's score: scale the query, then contract. -/
def scoreK (q : Fin 64 → EReal) (Kh : Fin 2048 → Fin 64 → EReal) (k : Fin 2048) : EReal :=
  ∑ d : Fin 64, (q d * scale) * Kh k d

/-- The reference's weighted average of the values: each weight divided by the denominator first. -/
def mixR (s : Fin 2048 → EReal) (Vh : Fin 2048 → Fin 64 → EReal) (d : Fin 64) : EReal :=
  ∑ k : Fin 2048, Ideal.div (wgt s k) (den s) * Vh k d
/-- The kernel's: the unnormalised average divided by the denominator once. -/
def mixK (s : Fin 2048 → EReal) (Vh : Fin 2048 → Fin 64 → EReal) (d : Fin 64) : EReal :=
  Ideal.div (∑ k : Fin 2048, wgt s k * Vh k d) (den s)

/-- One output row of the reference at column `e`. -/
def rowR (q : Fin 64 → EReal) (Kh Vh : Fin 2048 → Fin 64 → EReal) (W : Fin 64 → Fin 64 → EReal) (Bv : Fin 64 → EReal)
    (e : Fin 64) : EReal :=
  (∑ d : Fin 64, mixR (scoreR q Kh) Vh d * W e d) + Bv e
/-- One output row of the kernel at column `e`. -/
def rowK (q : Fin 64 → EReal) (Kh Vh : Fin 2048 → Fin 64 → EReal) (W : Fin 64 → Fin 64 → EReal) (Bv : Fin 64 → EReal)
    (e : Fin 64) : EReal :=
  (∑ d : Fin 64, mixK (scoreK q Kh) Vh d * W e d) + Bv e

/-! ## The whole arrays -/

abbrev A4 := (⟨4, ![4, 16, 2048, 64]⟩ : Shape).Idx → EReal
abbrev A3 := (⟨3, ![64, 2048, 64]⟩ : Shape).Idx → EReal
abbrev A2 := (⟨2, ![64, 64]⟩ : Shape).Idx → EReal
abbrev A1 := (⟨1, ![64]⟩ : Shape).Idx → EReal

/-- The reference's result over [batch, head, query, column]: row (b, h, q) against head (b, h). -/
def GR (Q K V : A4) (W : A2) (B : A1) : A4 := fun i =>
  rowR (fun d => Q (ix4 (i 0 : Fin 4) (i 1 : Fin 16) (i 2 : Fin 2048) d))
    (fun k d => K (ix4 (i 0 : Fin 4) (i 1 : Fin 16) k d)) (fun k d => V (ix4 (i 0 : Fin 4) (i 1 : Fin 16) k d))
    (fun e d => W (ix2 e d)) (fun e => B (ix1 e)) (i 3 : Fin 64)

/-- The kernel's result over the same axes. -/
def GK (Q K V : A4) (W : A2) (B : A1) : A4 := fun i =>
  rowK (fun d => Q (ix4 (i 0 : Fin 4) (i 1 : Fin 16) (i 2 : Fin 2048) d))
    (fun k d => K (ix4 (i 0 : Fin 4) (i 1 : Fin 16) k d)) (fun k d => V (ix4 (i 0 : Fin 4) (i 1 : Fin 16) k d))
    (fun e d => W (ix2 e d)) (fun e => B (ix1 e)) (i 3 : Fin 64)

/-- The kernel's result over [batch·head, query, column], the layout its grid walks. -/
def GK3 (Q K V : A3) (W : A2) (B : A1) : A3 := fun j =>
  rowK (fun d => Q (ix3 (j 0 : Fin 64) (j 1 : Fin 2048) d))
    (fun k d => K (ix3 (j 0 : Fin 64) k d)) (fun k d => V (ix3 (j 0 : Fin 64) k d))
    (fun e d => W (ix2 e d)) (fun e => B (ix1 e)) (j 2 : Fin 64)

end Cert.Attention

end
-- ==== Proof.ReferenceValue.lean ====
/-
  The reference program computes the attention specification GR.

  Each stage of the reference is read at an index with explicit coordinates (batch b, head h, query q, key k,
  columns d, e) and identified with the corresponding term of the specification: the scaled score, the row
  maximum, the softmax weight, the denominator, the normalised weight, the weighted average of the values,
  the projection, and the result with the bias added.
-/
import proofs.«152287_j11132555231665_2_alg».proof.Proof.Gen.ReferenceIdeal.Read
import proofs.«152287_j11132555231665_2_alg».proof.Proof.AttentionSpec

noncomputable section

namespace Cert.ReferenceIdeal.RefValue

open Cert.ReferenceIdeal Cert.ReferenceIdeal.Gen Cert.ReferenceIdeal.Read Idealize.ShloMosaic
  Idealize.ShloMosaic.ValueIdx Cert.Attention

/-- The rank-4 float inputs (queries, keys, values) at the ideal semantics. -/
abbrev X4 := (⟨S4x16x2048x64, .f32⟩ : BufTy).Contents (Elt Ideal)

/-- The query row (b, h, q) of the queries. -/
abbrev qrow (x0 : X4) (b : Fin 4) (h : Fin 16) (q : Fin 2048) : Fin 64 → EReal := fun d => x0 (ix4 b h q d)
/-- The rows of head (b, h) of a rank-4 input. -/
abbrev head (x : X4) (b : Fin 4) (h : Fin 16) : Fin 2048 → Fin 64 → EReal := fun k d => x (ix4 b h k d)

/-- The score stage at (b, h, q, k) is the contraction of the query row with key k, scaled by 1/8. -/
theorem score_apply (x0 x1 : X4) (b : Fin 4) (h : Fin 16) (q k : Fin 2048) :
    val_main_v2 (F := Ideal) x0 x1 (ix4 b h q k) = scoreR (qrow x0 b h q) (head x1 b h) k := by
  rw [val_main_v2_apply, val_main_v0_apply, val_main_v1_apply, val_main_cst_apply]
  unfold scoreR
  simp only [Ideal.mulf_def, Ideal.ofBits_def]
  refine congrArg (· * scale) (Finset.sum_congr rfl fun d _ => ?_)
  have el : lidx_main_v0 (ix4 b h q k) d = ix4 b h q d :=
    funext fun a => Fin.ext (by match a with | ⟨0, _⟩ => rfl | ⟨1, _⟩ => rfl | ⟨2, _⟩ => rfl | ⟨3, _⟩ => rfl)
  have er : ridx_main_v0 (ix4 b h q k) d = ix4 b h k d :=
    funext fun a => Fin.ext (by match a with | ⟨0, _⟩ => rfl | ⟨1, _⟩ => rfl | ⟨2, _⟩ => rfl | ⟨3, _⟩ => rfl)
  rw [el, er]

/-- The rank-3 index (b, h, q) with key k inserted on the last axis is (b, h, q, k). -/
theorem lift_ix3 (hR : S4x16x2048x2048.Reduces [3] S4x16x2048) (b : Fin 4) (h : Fin 16) (q k : Fin 2048) :
    hR.lift (ix3 b h q) k = ix4 b h q k :=
  funext fun a => Fin.ext (by match a with | ⟨0, _⟩ => rfl | ⟨1, _⟩ => rfl | ⟨2, _⟩ => rfl | ⟨3, _⟩ => rfl)

/-- The reduce stage at (b, h, q) is the fold of max from -∞ over the scores of the row. -/
theorem reduce_max_apply (x0 x1 : X4) (b : Fin 4) (h : Fin 16) (q : Fin 2048) :
    val_main_v3 (F := Ideal) x0 x1 (ix3 b h q) = rowMax (scoreR (qrow x0 b h q) (head x1 b h)) := by
  have hR : S4x16x2048x2048.Reduces [3] S4x16x2048 := by decide
  unfold val_main_v3
  rw [Host.reduce_eq_fold_single FloatOps.maximumf _ _ reducesTo_S4x16x2048x2048_S4x16x2048_d3 hR h_S_]
  have hf : (fun k : Fin 2048 => val_main_v2 (F := Ideal) x0 x1 (hR.lift (ix3 b h q) k))
      = scoreR (qrow x0 b h q) (head x1 b h) :=
    funext fun k => by rw [lift_ix3, score_apply]
  show (Finset.univ : Finset (Fin 2048)).fold max (val_main_cst_0 (F := Ideal) (Shape.Idx.first h_S_))
      (fun k : Fin 2048 => val_main_v2 (F := Ideal) x0 x1 (hR.lift (ix3 b h q) k)) = _
  rw [hf]
  rfl

/-- The row-maximum stage at (b, h, q): max of -∞ and the fold is the fold, since the fold starts from -∞. -/
theorem max_apply (x0 x1 : X4) (b : Fin 4) (h : Fin 16) (q : Fin 2048) :
    val_main_v5 (F := Ideal) x0 x1 (ix3 b h q) = rowMax (scoreR (qrow x0 b h q) (head x1 b h)) := by
  rw [val_main_v5_apply, val_main_v4_apply, val_main_cst_1_apply, reduce_max_apply]
  simp only [Ideal.maximumf_def, Ideal.ofBits_def]
  exact max_eq_right ((Finset.le_fold_max _).2 (Or.inl le_rfl))

/-- The scores of query row (b, h, q) against the keys of its head, as the reference computes them. -/
abbrev srow (x0 x1 : X4) (b : Fin 4) (h : Fin 16) (q : Fin 2048) : Fin 2048 → EReal :=
  scoreR (qrow x0 b h q) (head x1 b h)

/-- The exponential stage at (b, h, q, k) is the unnormalised softmax weight of key k. -/
theorem weight_apply (x0 x1 : X4) (b : Fin 4) (h : Fin 16) (q k : Fin 2048) :
    val_main_v9 (F := Ideal) x0 x1 (ix4 b h q k) = wgt (srow x0 x1 b h q) k := by
  rw [val_main_v9_apply, val_main_v8_apply, val_main_v7_apply, val_main_v6_apply, score_apply]
  have ei : idx_main_v6 (idx_main_v7 (ix4 b h q k)) = ix3 b h q :=
    funext fun a => Fin.ext (by match a with | ⟨0, _⟩ => rfl | ⟨1, _⟩ => rfl | ⟨2, _⟩ => rfl)
  rw [ei, max_apply]
  simp only [Ideal.hostUnary_exp_def, Ideal.subf_def]
  rfl

/-- The sum stage at (b, h, q) is the softmax denominator: zero plus the sum of the weights. -/
theorem den_apply (x0 x1 : X4) (b : Fin 4) (h : Fin 16) (q : Fin 2048) :
    val_main_v10 (F := Ideal) x0 x1 (ix3 b h q) = den (srow x0 x1 b h q) := by
  rw [val_main_v10_apply, val_main_cst_2_apply]
  simp only [Ideal.ofBits_def, Ideal.ofBits_zero_f32, zero_add]
  unfold den
  refine Finset.sum_congr rfl fun k _ => ?_
  have ei : idx_main_v10 (ix3 b h q) k = ix4 b h q k :=
    funext fun a => Fin.ext (by match a with | ⟨0, _⟩ => rfl | ⟨1, _⟩ => rfl | ⟨2, _⟩ => rfl | ⟨3, _⟩ => rfl)
  rw [ei, weight_apply]

/-- The division stage at (b, h, q, k) is the weight of key k divided by the denominator. -/
theorem norm_apply (x0 x1 : X4) (b : Fin 4) (h : Fin 16) (q k : Fin 2048) :
    val_main_v13 (F := Ideal) x0 x1 (ix4 b h q k)
      = Ideal.div (wgt (srow x0 x1 b h q) k) (den (srow x0 x1 b h q)) := by
  rw [val_main_v13_apply, val_main_v12_apply, val_main_v11_apply, weight_apply]
  have ei : idx_main_v11 (idx_main_v12 (ix4 b h q k)) = ix3 b h q :=
    funext fun a => Fin.ext (by match a with | ⟨0, _⟩ => rfl | ⟨1, _⟩ => rfl | ⟨2, _⟩ => rfl)
  rw [ei, den_apply]
  rfl

/-- The second contraction at (b, h, q, d) is the average of the values under the normalised weights. -/
theorem mix_apply (x0 x1 x2 : X4) (b : Fin 4) (h : Fin 16) (q : Fin 2048) (d : Fin 64) :
    val_main_v14 (F := Ideal) x0 x1 x2 (ix4 b h q d) = mixR (srow x0 x1 b h q) (head x2 b h) d := by
  rw [val_main_v14_apply]
  unfold mixR
  refine Finset.sum_congr rfl fun k _ => ?_
  have el : lidx_main_v14 (ix4 b h q d) k = ix4 b h q k :=
    funext fun a => Fin.ext (by match a with | ⟨0, _⟩ => rfl | ⟨1, _⟩ => rfl | ⟨2, _⟩ => rfl | ⟨3, _⟩ => rfl)
  have er : ridx_main_v14 (ix4 b h q d) k = ix4 b h k d :=
    funext fun a => Fin.ext (by match a with | ⟨0, _⟩ => rfl | ⟨1, _⟩ => rfl | ⟨2, _⟩ => rfl | ⟨3, _⟩ => rfl)
  rw [el, er, norm_apply]

/-- The projection stage at (b, h, q, e) is the average contracted with row e of the projection matrix. -/
theorem proj_apply (x0 x1 x2 : X4) (x3 : (⟨S64x64, .f32⟩ : BufTy).Contents (Elt Ideal))
    (b : Fin 4) (h : Fin 16) (q : Fin 2048) (e : Fin 64) :
    val_main_v15 (F := Ideal) x0 x1 x2 x3 (ix4 b h q e)
      = ∑ d : Fin 64, mixR (srow x0 x1 b h q) (head x2 b h) d * x3 (ix2 e d) := by
  rw [val_main_v15_apply]
  refine Finset.sum_congr rfl fun d _ => ?_
  have el : lidx_main_v15 (ix4 b h q e) d = ix4 b h q d :=
    funext fun a => Fin.ext (by match a with | ⟨0, _⟩ => rfl | ⟨1, _⟩ => rfl | ⟨2, _⟩ => rfl | ⟨3, _⟩ => rfl)
  have er : ridx_main_v15 (ix4 b h q e) d = ix2 e d :=
    funext fun a => Fin.ext (by match a with | ⟨0, _⟩ => rfl | ⟨1, _⟩ => rfl)
  rw [el, er, mix_apply]

/-- The result stage at (b, h, q, e) is the projected average plus the bias: one output row of the reference. -/
theorem result_apply (x0 x1 x2 : X4) (x3 : (⟨S64x64, .f32⟩ : BufTy).Contents (Elt Ideal))
    (x4 : (⟨S64, .f32⟩ : BufTy).Contents (Elt Ideal)) (b : Fin 4) (h : Fin 16) (q : Fin 2048) (e : Fin 64) :
    val_main_v18 (F := Ideal) x0 x1 x2 x3 x4 (ix4 b h q e)
      = rowR (qrow x0 b h q) (head x1 b h) (head x2 b h) (fun e d => x3 (ix2 e d)) (fun e => x4 (ix1 e)) e := by
  rw [val_main_v18_apply, val_main_v17_apply, val_main_v16_apply, proj_apply]
  have ei : idx_main_v16 (idx_main_v17 (ix4 b h q e)) = ix1 e :=
    funext fun a => Fin.ext (by match a with | ⟨0, _⟩ => rfl)
  rw [ei]
  rfl

/-- The reference program's result is the attention specification GR of its five inputs. -/
theorem val_eq_GR (x0 x1 x2 : (⟨S4x16x2048x64, .f32⟩ : BufTy).Contents (Elt Ideal))
    (x3 : (⟨S64x64, .f32⟩ : BufTy).Contents (Elt Ideal)) (x4 : (⟨S64, .f32⟩ : BufTy).Contents (Elt Ideal)) :
    Cert.ReferenceIdeal.Read.val_main_v18 (F := Ideal) x0 x1 x2 x3 x4 = Cert.Attention.GR x0 x1 x2 x3 x4 := by
  funext i
  have hi : i = ix4 (i 0 : Fin 4) (i 1 : Fin 16) (i 2 : Fin 2048) (i 3 : Fin 64) := eq_ix4 i
  exact (congrArg (val_main_v18 (F := Ideal) x0 x1 x2 x3 x4) hi).trans
    (result_apply x0 x1 x2 x3 x4 (i 0) (i 1) (i 2) (i 3))

end Cert.ReferenceIdeal.RefValue

end
-- ==== Proof.AttentionLaw.lean ====
/-
  The algebraic law behind the two attention programs.

  Scaling the query before the contraction or the contraction afterwards gives the same score, because the scale is a
  nonnegative real and such a constant distributes over a finite sum of extended reals. With real queries and keys every
  score is a real, so the row maximum is a real, every weight exp (s k − max s) is a positive real and so is their sum;
  dividing by that sum is multiplying by a nonnegative real, which again distributes over the average. Hence dividing every
  weight first or the unnormalised average once gives the same row.
-/
import proofs.«152287_j11132555231665_2_alg».proof.Proof.AttentionSpec

noncomputable section

namespace Cert.Attention

open Idealize.ShloMosaic

/-- A nonnegative real constant distributes over a finite sum of extended reals: (Σ f) · c = Σ (f · c). -/
theorem sum_mul_coe_of_nonneg {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- The coercion of a finite sum of reals is the sum of the coercions. -/
theorem coe_finsum {ι : Type} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- The scale word denotes the real 1/8. -/
theorem scale_eq : scale = ((1 / 8 : ℝ) : EReal) := by
  simp [Ideal.ofBits, Ideal.ieee, -EReal.coe_mul]; norm_num

/-- The word a row maximum starts from denotes -∞. -/
theorem negInf_eq : negInf = ⊥ := by simp [Ideal.ofBits, Ideal.ieee]

/-- Σ_d (q_d · c) · K_kd = (Σ_d q_d · K_kd) · c for the scale c: the two scores agree for every key. -/
theorem scoreK_eq_scoreR (q : Fin 64 → EReal) (Kh : Fin 2048 → Fin 64 → EReal) : scoreK q Kh = scoreR q Kh := by
  funext k
  unfold scoreK scoreR
  rw [scale_eq, sum_mul_coe_of_nonneg _ _ (by norm_num)]
  exact Finset.sum_congr rfl fun d _ => mul_right_comm _ _ _

/-- With real queries and keys every score is a real. -/
theorem scoreR_real (q : Fin 64 → EReal) (Kh : Fin 2048 → Fin 64 → EReal)
    (hq : ∀ d, ∃ r : ℝ, q d = (r : EReal)) (hK : ∀ k d, ∃ r : ℝ, Kh k d = (r : EReal)) (k : Fin 2048) :
    ∃ r : ℝ, scoreR q Kh k = (r : EReal) := by
  choose qr hqr using hq
  choose kr hkr using hK
  refine ⟨(∑ d, qr d * kr k d) * (1 / 8), ?_⟩
  unfold scoreR
  rw [scale_eq, EReal.coe_mul, coe_finsum]
  congr 1
  exact Finset.sum_congr rfl fun d _ => by rw [hqr, hkr, EReal.coe_mul]

/-- The maximum of a row of real scores is a real: it is at least the first score and below +∞. -/
theorem rowMax_real (s : Fin 2048 → EReal) (hs : ∀ k, ∃ r : ℝ, s k = (r : EReal)) :
    ∃ m : ℝ, rowMax s = (m : EReal) := by
  choose sr hsr using hs
  have hbot : rowMax s ≠ ⊥ := by
    have h0 : s 0 ≤ rowMax s := (Finset.le_fold_max _).2 (Or.inr ⟨0, Finset.mem_univ _, le_rfl⟩)
    intro h
    rw [h, hsr] at h0
    exact absurd h0 (not_le.2 (EReal.bot_lt_coe _))
  have htop : rowMax s ≠ ⊤ := by
    have h1 : rowMax s < ⊤ :=
      (Finset.fold_max_lt _).2 ⟨by rw [negInf_eq]; exact bot_lt_top, fun k _ => by rw [hsr]; exact EReal.coe_lt_top _⟩
    exact h1.ne
  exact ⟨(rowMax s).toReal, (EReal.coe_toReal htop hbot).symm⟩

/-- Every weight of a row of real scores is a positive real. -/
theorem wgt_real_pos (s : Fin 2048 → EReal) (hs : ∀ k, ∃ r : ℝ, s k = (r : EReal)) (k : Fin 2048) :
    ∃ w : ℝ, 0 < w ∧ wgt s k = (w : EReal) := by
  obtain ⟨m, hm⟩ := rowMax_real s hs
  obtain ⟨a, ha⟩ := hs k
  refine ⟨Real.exp (a - m), Real.exp_pos _, ?_⟩
  unfold wgt
  rw [ha, hm, ← EReal.coe_sub, Ideal.exp_coe]

/-- The denominator of a row of real scores is a positive real. -/
theorem den_real_pos (s : Fin 2048 → EReal) (hs : ∀ k, ∃ r : ℝ, s k = (r : EReal)) :
    ∃ l : ℝ, 0 < l ∧ den s = (l : EReal) := by
  choose w hw0 hw using wgt_real_pos s hs
  refine ⟨∑ k, w k, Finset.sum_pos (fun k _ => hw0 k) Finset.univ_nonempty, ?_⟩
  unfold den
  rw [coe_finsum]
  exact Finset.sum_congr rfl fun k _ => hw k

/-- (Σ_k w_k · V_kd) / l = Σ_k (w_k / l) · V_kd for the positive real denominator l of a row of real scores. -/
theorem mixK_eq_mixR (s : Fin 2048 → EReal) (hs : ∀ k, ∃ r : ℝ, s k = (r : EReal)) (Vh : Fin 2048 → Fin 64 → EReal) :
    mixK s Vh = mixR s Vh := by
  funext d
  obtain ⟨l, hl0, hl⟩ := den_real_pos s hs
  unfold mixK mixR
  rw [hl, Ideal.div_coe hl0.ne', sum_mul_coe_of_nonneg _ _ (by positivity)]
  refine Finset.sum_congr rfl fun k _ => ?_
  rw [Ideal.div_coe hl0.ne', mul_right_comm]

/-- With real queries and keys the kernel's row equals the reference's row. -/
theorem rowK_eq_rowR (q : Fin 64 → EReal) (Kh Vh : Fin 2048 → Fin 64 → EReal) (W : Fin 64 → Fin 64 → EReal)
    (Bv : Fin 64 → EReal) (e : Fin 64)
    (hq : ∀ d, ∃ r : ℝ, q d = (r : EReal)) (hK : ∀ k d, ∃ r : ℝ, Kh k d = (r : EReal)) :
    rowK q Kh Vh W Bv e = rowR q Kh Vh W Bv e := by
  unfold rowK rowR
  rw [scoreK_eq_scoreR, mixK_eq_mixR _ (scoreR_real q Kh hq hK)]

/-- With real queries and keys the kernel's array equals the reference's array. -/
theorem GK_eq_GR (Q K V : A4) (W : A2) (B : A1) (hQ : ∀ i, ∃ r : ℝ, Q i = (r : EReal))
    (hK : ∀ i, ∃ r : ℝ, K i = (r : EReal)) :
    GK Q K V W B = GR Q K V W B := by
  funext i
  unfold GK GR
  exact rowK_eq_rowR _ _ _ _ _ _ (fun d => hQ _) (fun k d => hK _)

end Cert.Attention

end
-- ==== Proof.FiniteInputs.lean ====
/-
  The precondition says that every entry of every float input is a real.

  It is the conjunction, over the five inputs, of "all entries x satisfy |x| < +∞": a reduction by `and` of the
  comparison words, from the word 1. A conjunction of words that is 1 has every conjunct 1; a reduction by `and` over all
  axes that is 1 met the word 1 at every index; and the word of |x| < +∞ being 1 says max x (−x) < ⊤ in the extended
  reals, which fails at both infinities and so leaves a real.
-/
import proofs.«152287_j11132555231665_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic

/-- An extended real x with max x (−x) < ⊤ is a real: at ⊥ and at ⊤ the maximum is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The f32 word 0x7F800000 denotes +∞. -/
theorem posInf_eq : Ideal.ofBits .f32 0x7F800000#32 = ⊤ := by simp [Ideal.ofBits, Ideal.ieee]

/-- The comparison word of |x| < +∞ being 1 says that x is a real. -/
theorem real_of_word (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [posInf_eq] at h
  refine real_of_abs_lt_top x ?_
  by_contra hn
  simp [Ideal.cmp, hn] at h

/-- The result shape of a reduction over all axes has one index. -/
instance : Subsingleton Cert.Pre_finite_inputs.S_.Idx := ⟨fun _ _ => funext fun d => d.elim0⟩

variable [Cert.Pre_finite_inputs.Facts]

/-- Under the precondition every entry of each of the five inputs is a real. -/
theorem real_all_of_pre (x0 x1 x2 : FVec Ideal Cert.Pre_finite_inputs.S4x16x2048x64 .f32)
    (x3 : FVec Ideal Cert.Pre_finite_inputs.S64x64 .f32) (x4 : FVec Ideal Cert.Pre_finite_inputs.S64 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have e := congrFun h ValueIdx.ix0
  dsimp only [Cert.Pre_finite_inputs.fn, Cert.Pre_finite_inputs.fn_part1] at e
  simp only [andi, IntOp.andi_eq_one] at e
  obtain ⟨⟨⟨⟨h0, h1⟩, h2⟩, h3⟩, h4⟩ := e
  exact ⟨fun i => real_of_word _ (Host.reduce_andi_all _ _ _ _ _ h0 i),
    fun i => real_of_word _ (Host.reduce_andi_all _ _ _ _ _ h1 i),
    fun i => real_of_word _ (Host.reduce_andi_all _ _ _ _ _ h2 i),
    fun i => real_of_word _ (Host.reduce_andi_all _ _ _ _ _ h3 i),
    fun i => real_of_word _ (Host.reduce_andi_all _ _ _ _ _ h4 i)⟩

/-- Under the precondition every query entry and every key entry is a real. -/
theorem real_of_pre (x0 x1 x2 : FVec Ideal Cert.Pre_finite_inputs.S4x16x2048x64 .f32)
    (x3 : FVec Ideal Cert.Pre_finite_inputs.S64x64 .f32) (x4 : FVec Ideal Cert.Pre_finite_inputs.S64 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) :=
  ⟨(real_all_of_pre x0 x1 x2 x3 x4 h).1, (real_all_of_pre x0 x1 x2 x3 x4 h).2.1⟩

end Cert.FiniteInputs

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.KernelProducts.lean ====
/-
  The kernel body's one store, read at an entry of the block it writes.

  The body loads a [1, 1024, 64] block of queries, the head's [1, 2048, 64] keys and values, the projection and the
  bias, and stores a [1, 1024, 64] block. Read at row r and column e of that block, at exact arithmetic, the stored
  value is one attention row of the specification (`Cert.Attention.rowK`): the three matrix products are sums over
  their contracted axis, the two row reductions a fold of max and a sum over the 2048 keys, the shape casts and
  broadcasts only move coordinates, and the changes of float format are the identity.
-/
import proofs.«152287_j11132555231665_2_alg».proof.Proof.Gen.KernelIdeal.Skeleton
import proofs.«152287_j11132555231665_2_alg».proof.Proof.AttentionSpec
import proofs.«152287_j11132555231665_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Row

open Idealize.ShloMosaic Idealize.ShloMosaic.ValueIdx Cert.KernelIdeal Cert.KernelIdeal.Gen Cert.Attention
open Cert.KernelIdeal.Facts₀

variable [Cert.KernelIdeal.Facts]

/-! ## The three matrix products at an entry -/

theorem scores_lhs0 (i : S1024x2048.Idx) (q : dot_S1024x64_S2048x64_S1024x2048_1_1_0_0_n_n.contr.Idx) : (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl
theorem scores_lhs1 (i : S1024x2048.Idx) (q : dot_S1024x64_S2048x64_S1024x2048_1_1_0_0_n_n.contr.Idx) : (dot_S1024x64_S2048x64_S1024x2048_1_1_0_0_n_n.lhsIdx i q 1).val = (q ⟨0, by decide⟩).val :=
  dot_S1024x64_S2048x64_S1024x2048_1_1_0_0_n_n.lhsIdx_val_of_single rfl i q
theorem scores_rhs0 (i : S1024x2048.Idx) (q : dot_S1024x64_S2048x64_S1024x2048_1_1_0_0_n_n.contr.Idx) : (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl
theorem scores_rhs1 (i : S1024x2048.Idx) (q : dot_S1024x64_S2048x64_S1024x2048_1_1_0_0_n_n.contr.Idx) : (dot_S1024x64_S2048x64_S1024x2048_1_1_0_0_n_n.rhsIdx i q 1).val = (q ⟨0, by decide⟩).val :=
  dot_S1024x64_S2048x64_S1024x2048_1_1_0_0_n_n.rhsIdx_val_of_single rfl i q

/-- Scores: queries [1024, 64] against keys [2048, 64], both contracted on their last axis. -/
theorem scores_apply (l : FVec Ideal S1024x64 .bf16) (r : FVec Ideal S2048x64 .bf16) (p : Fin 1024) (c : Fin 2048) :
    matmul dot_S1024x64_S2048x64_S1024x2048_1_1_0_0_n_n none l r (constant S1024x2048 .f32 0x00000000#32) (ix2 p c)
      = ∑ k : Fin 64, l (ix2 p k) * r (ix2 c k) := by
  refine (Ideal.matmul_constant_zero_apply _ none l r (ix2 p c)).trans ?_
  rw [← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 p c) ((contrEquiv1 dot_S1024x64_S2048x64_S1024x2048_1_1_0_0_n_n 64 rfl rfl).symm k) = ix2 p k :=
    funext fun a => Fin.ext (by
      match a with
      | ⟨0, _⟩ => exact scores_lhs0 _ _
      | ⟨1, _⟩ => exact (scores_lhs1 _ _).trans hk)
  have er : dot_S1024x64_S2048x64_S1024x2048_1_1_0_0_n_n.rhsIdx (ix2 p c) ((contrEquiv1 dot_S1024x64_S2048x64_S1024x2048_1_1_0_0_n_n 64 rfl rfl).symm k) = ix2 c k :=
    funext fun a => Fin.ext (by
      match a with
      | ⟨0, _⟩ => exact scores_rhs0 _ _
      | ⟨1, _⟩ => exact (scores_rhs1 _ _).trans hk)
  rw [el, er]

theorem average_lhs0 (i : S1024x64.Idx) (q : dot_S1024x2048_S2048x64_S1024x64_1_0_0_1_n_n.contr.Idx) : (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem average_lhs1 (i : S1024x64.Idx) (q : dot_S1024x2048_S2048x64_S1024x64_1_0_0_1_n_n.contr.Idx) : (dot_S1024x2048_S2048x64_S1024x64_1_0_0_1_n_n.lhsIdx i q 1).val = (q ⟨0, by decide⟩).val :=
  dot_S1024x2048_S2048x64_S1024x64_1_0_0_1_n_n.lhsIdx_val_of_single rfl i q
theorem average_rhs1 (i : S1024x64.Idx) (q : dot_S1024x2048_S2048x64_S1024x64_1_0_0_1_n_n.contr.Idx) : (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl
theorem average_rhs0 (i : S1024x64.Idx) (q : dot_S1024x2048_S2048x64_S1024x64_1_0_0_1_n_n.contr.Idx) : (dot_S1024x2048_S2048x64_S1024x64_1_0_0_1_n_n.rhsIdx i q 0).val = (q ⟨0, by decide⟩).val :=
  dot_S1024x2048_S2048x64_S1024x64_1_0_0_1_n_n.rhsIdx_val_of_single rfl i q

/-- The unnormalised average: weights [1024, 2048] against values [2048, 64], contracted over the keys. -/
theorem average_apply (l : FVec Ideal S1024x2048 .bf16) (r : FVec Ideal S2048x64 .bf16) (p : Fin 1024) (c : Fin 64) :
    matmul dot_S1024x2048_S2048x64_S1024x64_1_0_0_1_n_n none l r (constant S1024x64 .f32 0x00000000#32) (ix2 p c)
      = ∑ k : Fin 2048, l (ix2 p k) * r (ix2 k c) := by
  refine (Ideal.matmul_constant_zero_apply _ none l r (ix2 p c)).trans ?_
  rw [← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 p c) ((contrEquiv1 dot_S1024x2048_S2048x64_S1024x64_1_0_0_1_n_n 2048 rfl rfl).symm k) = ix2 p k :=
    funext fun a => Fin.ext (by
      match a with
      | ⟨0, _⟩ => exact average_lhs0 _ _
      | ⟨1, _⟩ => exact (average_lhs1 _ _).trans hk)
  have er : dot_S1024x2048_S2048x64_S1024x64_1_0_0_1_n_n.rhsIdx (ix2 p c) ((contrEquiv1 dot_S1024x2048_S2048x64_S1024x64_1_0_0_1_n_n 2048 rfl rfl).symm k) = ix2 k c :=
    funext fun a => Fin.ext (by
      match a with
      | ⟨0, _⟩ => exact (average_rhs0 _ _).trans hk
      | ⟨1, _⟩ => exact average_rhs1 _ _)
  rw [el, er]

theorem project_lhs0 (i : S1024x64.Idx) (q : dot_S1024x64_S64x64_S1024x64_1_1_0_0_n_n.contr.Idx) : (dot_S1024x64_S64x64_S1024x64_1_1_0_0_n_n.lhsIdx i q 0).val = (i 0).val := by
  unfold DotDims.lhsIdx
  rw [dif_neg (show ¬(0 : Fin S1024x64.rank) ∈ dot_S1024x64_S64x64_S1024x64_1_1_0_0_n_n.lhsBatch by decide),
    dif_pos (show (0 : Fin S1024x64.rank) ∈ dot_S1024x64_S64x64_S1024x64_1_1_0_0_n_n.lhsNonContracting by decide)]
  rfl
theorem project_lhs1 (i : S1024x64.Idx) (q : dot_S1024x64_S64x64_S1024x64_1_1_0_0_n_n.contr.Idx) : (dot_S1024x64_S64x64_S1024x64_1_1_0_0_n_n.lhsIdx i q 1).val = (q ⟨0, by decide⟩).val :=
  dot_S1024x64_S64x64_S1024x64_1_1_0_0_n_n.lhsIdx_val_of_single rfl i q
theorem project_rhs0 (i : S1024x64.Idx) (q : dot_S1024x64_S64x64_S1024x64_1_1_0_0_n_n.contr.Idx) : (dot_S1024x64_S64x64_S1024x64_1_1_0_0_n_n.rhsIdx i q 0).val = (i 1).val := by
  unfold DotDims.rhsIdx
  rw [dif_neg (show ¬(0 : Fin S64x64.rank) ∈ dot_S1024x64_S64x64_S1024x64_1_1_0_0_n_n.rhsBatch by decide),
    dif_pos (show (0 : Fin S64x64.rank) ∈ dot_S1024x64_S64x64_S1024x64_1_1_0_0_n_n.rhsNonContracting by decide)]
  rfl
theorem project_rhs1 (i : S1024x64.Idx) (q : dot_S1024x64_S64x64_S1024x64_1_1_0_0_n_n.contr.Idx) : (dot_S1024x64_S64x64_S1024x64_1_1_0_0_n_n.rhsIdx i q 1).val = (q ⟨0, by decide⟩).val :=
  dot_S1024x64_S64x64_S1024x64_1_1_0_0_n_n.rhsIdx_val_of_single rfl i q

/-- The projection: the averages [1024, 64] against the weight matrix [64, 64], both contracted on their last axis. -/
theorem project_apply (l : FVec Ideal S1024x64 .bf16) (r : FVec Ideal S64x64 .bf16) (p : Fin 1024) (c : Fin 64) :
    matmul dot_S1024x64_S64x64_S1024x64_1_1_0_0_n_n none l r (constant S1024x64 .f32 0x00000000#32) (ix2 p c)
      = ∑ k : Fin 64, l (ix2 p k) * r (ix2 c k) := by
  refine (Ideal.matmul_constant_zero_apply _ none l r (ix2 p c)).trans ?_
  rw [← Equiv.sum_comp (contrEquiv1 dot_S1024x64_S64x64_S1024x64_1_1_0_0_n_n 64 rfl rfl).symm]
  refine Finset.sum_congr rfl fun k _ => ?_
  have hk := contrEquiv1_symm_val dot_S1024x64_S64x64_S1024x64_1_1_0_0_n_n 64 rfl rfl k
  have el : dot_S1024x64_S64x64_S1024x64_1_1_0_0_n_n.lhsIdx (ix2 p c) ((contrEquiv1 dot_S1024x64_S64x64_S1024x64_1_1_0_0_n_n 64 rfl rfl).symm k) = ix2 p k :=
    funext fun a => Fin.ext (by
      match a with
      | ⟨0, _⟩ => exact project_lhs0 _ _
      | ⟨1, _⟩ => exact (project_lhs1 _ _).trans hk)
  have er : dot_S1024x64_S64x64_S1024x64_1_1_0_0_n_n.rhsIdx (ix2 p c) ((contrEquiv1 dot_S1024x64_S64x64_S1024x64_1_1_0_0_n_n 64 rfl rfl).symm k) = ix2 c k :=
    funext fun a => Fin.ext (by
      match a with
      | ⟨0, _⟩ => exact project_rhs0 _ _
      | ⟨1, _⟩ => exact (project_rhs1 _ _).trans hk)
  rw [el, er]

end Cert.KernelIdeal.Row

end
-- ==== Proof.KernelRow.lean ====
/-
  The kernel body's one store, read at an entry of the block it writes.

  The body loads a [1, 1024, 64] block of queries, its head's [1, 2048, 64] keys and values, the projection matrix and
  the bias, and stores a [1, 1024, 64] block. Its arithmetic is cut here into four stages — the scores, the softmax
  weights, the normalised average of the values, the projection plus bias — and each is read at an entry at exact
  arithmetic: a matrix product is the sum over its contracted axis, a row reduction a fold of max or a sum over the
  2048 keys, shape casts and broadcasts only move coordinates, a change of float format is the identity. Together:
  row r, column e of the stored block is one attention row of the specification (`Cert.Attention.rowK`).
-/
import proofs.«152287_j11132555231665_2_alg».proof.Proof.KernelProducts

noncomputable section

namespace Cert.KernelIdeal.Row

open Idealize.ShloMosaic Idealize.ShloMosaic.ValueIdx Cert.KernelIdeal Cert.Attention
open Cert.KernelIdeal.Facts₀ Cert.Lib.Keepdims

variable [Cert.KernelIdeal.Facts]

/-! ## The four stages of the body -/

/-- The score tile: (queries · 1/8) against the keys. -/
def scoresV (x0 : Vec Ideal S1x1024x64 .f32) (x1 : Vec Ideal S1x2048x64 .f32) : FVec Ideal S1024x2048 .f32 :=
  matmul dot_S1024x64_S2048x64_S1024x2048_1_1_0_0_n_n none
    (truncf .bf16 (mulf (shapeCast S1024x64 x0 shapeCasts_S1x1024x64_S1024x64)
      (broadcast S1024x64 (Scalar.ofBits .f32 0x3E000000#32))) bitsLt_bf16_f32)
    (truncf .bf16 (shapeCast S2048x64 x1 shapeCasts_S1x2048x64_S2048x64) bitsLt_bf16_f32)
    (constant S1024x2048 .f32 0x00000000#32)

/-- The softmax weights of a score tile: exp (score − row maximum). -/
def weightsV (S : FVec Ideal S1024x2048 .f32) : FVec Ideal S1024x2048 .f32 :=
  exp (subf S (broadcastTo S1024x2048
    (shapeCast S1024x1 (multiReduction .maximumf [1] S1024 S 0xFF800000#32 reduces_S1024x2048_S1024 (.inl rfl) rfl)
      shapeCasts_S1024_S1024x1) broadcasts_S1024x1_S1024x2048))

/-- The weighted average of the values, divided by the row's sum of weights. -/
def mixV (P : FVec Ideal S1024x2048 .f32) (x2 : Vec Ideal S1x2048x64 .f32) : FVec Ideal S1024x64 .f32 :=
  divf (matmul dot_S1024x2048_S2048x64_S1024x64_1_0_0_1_n_n none (truncf .bf16 P bitsLt_bf16_f32)
      (truncf .bf16 (shapeCast S2048x64 x2 shapeCasts_S1x2048x64_S2048x64) bitsLt_bf16_f32)
      (constant S1024x64 .f32 0x00000000#32))
    (broadcastTo S1024x64
      (shapeCast S1024x1 (multiReduction .add [1] S1024 P 0x00000000#32 reduces_S1024x2048_S1024 (.inl rfl) rfl)
        shapeCasts_S1024_S1024x1) broadcasts_S1024x1_S1024x64)

/-- The projection plus bias, as the stored [1, 1024, 64] block. -/
def outV (A : FVec Ideal S1024x64 .f32) (x3 : Vec Ideal S64x64 .f32) (x4 : Vec Ideal S64 .f32) : FVec Ideal S1x1024x64 .f32 :=
  shapeCast S1x1024x64
    (addf (matmul dot_S1024x64_S64x64_S1024x64_1_1_0_0_n_n none (truncf .bf16 A bitsLt_bf16_f32)
        (truncf .bf16 x3 bitsLt_bf16_f32) (constant S1024x64 .f32 0x00000000#32))
      (broadcastTo S1024x64 (shapeCast S1x64 x4 shapeCasts_S64_S1x64) broadcasts_S1x64_S1024x64))
    shapeCasts_S1024x64_S1x1024x64

/-- The stored value is the four stages composed. -/
theorem pay_eq (x0 : Vec Ideal S1x1024x64 .f32) (x1 x2 : Vec Ideal S1x2048x64 .f32) (x3 : Vec Ideal S64x64 .f32)
    (x4 : Vec Ideal S64 .f32) :
    Gen.k0_pay1 (F := Ideal) x0 x1 x2 x3 x4 = outV (mixV (weightsV (scoresV x0 x1)) x2) x3 x4 := rfl

/-! ## Each stage at an entry -/

/-- A score: Σ_d (q_d · 1/8) · K_kd over the row's query and the key's row. -/
theorem scoresV_apply (x0 : Vec Ideal S1x1024x64 .f32) (x1 : Vec Ideal S1x2048x64 .f32) (r : Fin 1024) (k : Fin 2048) :
    scoresV x0 x1 (ix2 r k)
      = scoreK (fun d => x0 (ix3 (0 : Fin 1) r d)) (fun k d => x1 (ix3 (0 : Fin 1) k d)) k := by
  unfold scoresV scoreK
  refine (scores_apply _ _ r k).trans (Finset.sum_congr rfl fun d _ => ?_)
  show (shapeCast S1024x64 x0 shapeCasts_S1x1024x64_S1024x64 (ix2 r d) * scale)
      * shapeCast S2048x64 x1 shapeCasts_S1x2048x64_S2048x64 (ix2 k d) = _
  rw [shapeCast_1ab_ab_apply, shapeCast_1ab_ab_apply]

/-- A row's maximum: the fold of max from -∞ over the row. -/
theorem rowMax_apply (S : FVec Ideal S1024x2048 .f32) (r : Fin 1024) :
    multiReduction .maximumf [1] S1024 S 0xFF800000#32 reduces_S1024x2048_S1024 (.inl rfl) rfl (ix1 r)
      = rowMax (fun k => S (ix2 r k)) := by
  refine (Ideal.multiReduction_maximumf_single S 0xFF800000#32 reduces_S1024x2048_S1024 (.inl rfl) rfl (ix1 r)).trans ?_
  unfold rowMax
  exact Finset.fold_congr fun k _ => congrArg S (lift_lastAxis reduces_S1024x2048_S1024 r k)

/-- A weight: exp (score − the row's maximum). -/
theorem weightsV_apply (S : FVec Ideal S1024x2048 .f32) (r : Fin 1024) (k : Fin 2048) :
    weightsV S (ix2 r k) = wgt (fun k => S (ix2 r k)) k := by
  unfold weightsV wgt
  show Ideal.exp (S (ix2 r k) - broadcastTo S1024x2048 _ broadcasts_S1024x1_S1024x2048 (ix2 r k)) = _
  rw [broadcastTo_a1_ab_apply, shapeCast_a_a1_apply, rowMax_apply]

/-- An averaged value: (Σ_k P_rk · V_kd) / Σ_k P_rk. -/
theorem mixV_apply (P : FVec Ideal S1024x2048 .f32) (x2 : Vec Ideal S1x2048x64 .f32) (r : Fin 1024) (d : Fin 64) :
    mixV P x2 (ix2 r d)
      = Ideal.div (∑ k : Fin 2048, P (ix2 r k) * x2 (ix3 (0 : Fin 1) k d)) (∑ k : Fin 2048, P (ix2 r k)) := by
  unfold mixV
  show Ideal.div (matmul (F := Ideal) dot_S1024x2048_S2048x64_S1024x64_1_0_0_1_n_n none _ _ _ (ix2 r d))
      (broadcastTo S1024x64 _ broadcasts_S1024x1_S1024x64 (ix2 r d)) = _
  rw [average_apply, broadcastTo_a1_ab_apply, shapeCast_a_a1_apply, rowSum_apply]
  refine congrArg (Ideal.div · _) (Finset.sum_congr rfl fun k _ => ?_)
  show P (ix2 r k) * shapeCast S2048x64 x2 shapeCasts_S1x2048x64_S2048x64 (ix2 k d) = _
  rw [shapeCast_1ab_ab_apply]

/-- A stored entry: Σ_d A_rd · W_ed + b_e. -/
theorem outV_apply (A : FVec Ideal S1024x64 .f32) (x3 : Vec Ideal S64x64 .f32) (x4 : Vec Ideal S64 .f32)
    (u : Fin 1) (r : Fin 1024) (e : Fin 64) :
    outV A x3 x4 (ix3 u r e) = (∑ d : Fin 64, A (ix2 r d) * x3 (ix2 e d)) + x4 (ix1 e) := by
  unfold outV
  refine (shapeCast_ab_1ab_apply _ _ u r e).trans ?_
  show matmul (F := Ideal) dot_S1024x64_S64x64_S1024x64_1_1_0_0_n_n none _ _ _ (ix2 r e)
      + broadcastTo S1024x64 _ broadcasts_S1x64_S1024x64 (ix2 r e) = _
  rw [project_apply, broadcastTo_1b_ab_apply, shapeCast_a_1a_apply]
  rfl

/-! ## The stored block at an entry -/

/-- Row r, column e of the stored block is the attention row of the block's query row r against the loaded head. -/
theorem pay_apply (x0 : Vec Ideal S1x1024x64 .f32) (x1 x2 : Vec Ideal S1x2048x64 .f32) (x3 : Vec Ideal S64x64 .f32)
    (x4 : Vec Ideal S64 .f32) (u : Fin 1) (r : Fin 1024) (e : Fin 64) :
    Gen.k0_pay1 (F := Ideal) x0 x1 x2 x3 x4 (ix3 u r e)
      = rowK (fun d => x0 (ix3 (0 : Fin 1) r d)) (fun k d => x1 (ix3 (0 : Fin 1) k d))
          (fun k d => x2 (ix3 (0 : Fin 1) k d)) (fun e d => x3 (ix2 e d)) (fun e => x4 (ix1 e)) e := by
  rw [pay_eq, outV_apply]
  unfold rowK
  refine congrArg (· + x4 (ix1 e)) (Finset.sum_congr rfl fun d _ => congrArg (· * x3 (ix2 e d)) ?_)
  rw [mixV_apply]
  have hs : (fun k => scoresV x0 x1 (ix2 r k))
      = scoreK (fun d => x0 (ix3 (0 : Fin 1) r d)) (fun k d => x1 (ix3 (0 : Fin 1) k d)) :=
    funext fun k => scoresV_apply x0 x1 r k
  unfold mixK den
  simp only [weightsV_apply, hs]

end Cert.KernelIdeal.Row

end
-- ==== Proof.KernelBlocks.lean ====
/-
  What the kernel's region leaves in its result array.

  The grid has 64 × 2 points; point (g, s) writes rows 1024·s … 1024·s + 1023 of head g of the [64, 2048, 64] result,
  computed from the same rows of the queries and from ALL 2048 rows of head g's keys and values. So the block a point
  writes back is the block of one whole-array function — each entry the attention row of its own query row against its
  head (`Cert.Attention.GK3`) — and since the 128 blocks tile the array, the array ends holding that function.
-/
import proofs.«152287_j11132555231665_2_alg».proof.Proof.Gen.KernelIdeal.Frame
import proofs.«152287_j11132555231665_2_alg».proof.Proof.KernelRow
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.Attention

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The result array as one function of the arrays the region finds: every entry an attention row. -/
abbrev regionResult (c : Dev nD) : S64x2048x64.Idx → EReal :=
  GK3 (V m c main_v0) (V m c main_v1) (V m c main_v2) (V m c main_arg3) (V m c main_arg4)

/-- The block index maps over the grid: the query block moves with the output block; the key and value blocks
    follow its head and stay at row block 0; the projection and the bias stay put. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 2) = 0 ∧ win0_3.index t (1 : Fin 2) = 0 ∧ win0_4.index t (0 : Fin 1) = 0
    ∧ win0_5.index t (0 : Fin 3) ≤ 63 ∧ win0_5.index t (1 : Fin 3) ≤ 1 ∧ win0_5.index t (2 : Fin 3) = 0 :=
  (by decide +kernel : ∀ t : Fin grid0.N, _)

/-- Every (head, row block) is some point's output block. -/
theorem idx_onto : ∀ (q0 : Fin 64) (q1 : Fin 2), ∃ t : Fin cfg0.N, win0_5.index t = ![q0.val, q1.val, 0] :=
  (by decide +kernel : ∀ (q0 : Fin 64) (q1 : Fin 2), ∃ t : Fin grid0.N, win0_5.index t = ![q0.val, q1.val, 0])

/-! ## Each input block read off its array -/

/-- The query block at a point, entry y, is the query array at the block's offset plus y. -/
theorem iblk0_apply (c : Dev nD) (t : Fin cfg0.N) (y : S1x1024x64.Idx) (k : S64x2048x64.Idx)
    (h0 : (k 0).val = win0_0.index t (0 : Fin 3) * 1 + 1 * (y 0).val)
    (h1 : (k 1).val = win0_0.index t (1 : Fin 3) * 1024 + 1 * (y 1).val)
    (h2 : (k 2).val = win0_0.index t (2 : Fin 3) * 64 + 1 * (y 2).val) :
    (iblk m c 0 t : Vec Ideal S1x1024x64 .f32) y = (V m c main_v0 : S64x2048x64.Idx → EReal) k := by
  unfold iblk
  rw [View.read_apply]
  show V m c main_v0 _ = V m c main_v0 _
  refine congrArg (V m c main_v0) ?_
  funext a; apply Fin.ext
  match a with
  | ⟨0, _⟩ => exact h0.symm
  | ⟨1, _⟩ => exact h1.symm
  | ⟨2, _⟩ => exact h2.symm

/-- The key block likewise. -/
theorem iblk1_apply (c : Dev nD) (t : Fin cfg0.N) (y : S1x2048x64.Idx) (k : S64x2048x64.Idx)
    (h0 : (k 0).val = win0_1.index t (0 : Fin 3) * 1 + 1 * (y 0).val)
    (h1 : (k 1).val = win0_1.index t (1 : Fin 3) * 2048 + 1 * (y 1).val)
    (h2 : (k 2).val = win0_1.index t (2 : Fin 3) * 64 + 1 * (y 2).val) :
    (iblk m c 1 t : Vec Ideal S1x2048x64 .f32) y = (V m c main_v1 : S64x2048x64.Idx → EReal) k := by
  unfold iblk
  rw [View.read_apply]
  show V m c main_v1 _ = V m c main_v1 _
  refine congrArg (V m c main_v1) ?_
  funext a; apply Fin.ext
  match a with
  | ⟨0, _⟩ => exact h0.symm
  | ⟨1, _⟩ => exact h1.symm
  | ⟨2, _⟩ => exact h2.symm

/-- The value block likewise. -/
theorem iblk2_apply (c : Dev nD) (t : Fin cfg0.N) (y : S1x2048x64.Idx) (k : S64x2048x64.Idx)
    (h0 : (k 0).val = win0_2.index t (0 : Fin 3) * 1 + 1 * (y 0).val)
    (h1 : (k 1).val = win0_2.index t (1 : Fin 3) * 2048 + 1 * (y 1).val)
    (h2 : (k 2).val = win0_2.index t (2 : Fin 3) * 64 + 1 * (y 2).val) :
    (iblk m c 2 t : Vec Ideal S1x2048x64 .f32) y = (V m c main_v2 : S64x2048x64.Idx → EReal) k := by
  unfold iblk
  rw [View.read_apply]
  show V m c main_v2 _ = V m c main_v2 _
  refine congrArg (V m c main_v2) ?_
  funext a; apply Fin.ext
  match a with
  | ⟨0, _⟩ => exact h0.symm
  | ⟨1, _⟩ => exact h1.symm
  | ⟨2, _⟩ => exact h2.symm

/-- The projection matrix is one block. -/
theorem iblk3_apply (c : Dev nD) (t : Fin cfg0.N) (y : S64x64.Idx) (k : S64x64.Idx)
    (h0 : (k 0).val = win0_3.index t (0 : Fin 2) * 64 + 1 * (y 0).val)
    (h1 : (k 1).val = win0_3.index t (1 : Fin 2) * 64 + 1 * (y 1).val) :
    (iblk m c 3 t : Vec Ideal S64x64 .f32) y = (V m c main_arg3 : S64x64.Idx → EReal) k := by
  unfold iblk
  rw [View.read_apply]
  show V m c main_arg3 _ = V m c main_arg3 _
  refine congrArg (V m c main_arg3) ?_
  funext a; apply Fin.ext
  match a with
  | ⟨0, _⟩ => exact h0.symm
  | ⟨1, _⟩ => exact h1.symm

/-- The bias is one block. -/
theorem iblk4_apply (c : Dev nD) (t : Fin cfg0.N) (y : S64.Idx) (k : S64.Idx)
    (h0 : (k 0).val = win0_4.index t (0 : Fin 1) * 64 + 1 * (y 0).val) :
    (iblk m c 4 t : Vec Ideal S64 .f32) y = (V m c main_arg4 : S64.Idx → EReal) k := by
  unfold iblk
  rw [View.read_apply]
  show V m c main_arg4 _ = V m c main_arg4 _
  refine congrArg (V m c main_arg4) ?_
  funext a; apply Fin.ext
  match a with
  | ⟨0, _⟩ => exact h0.symm

end Cert.KernelIdeal.Region

end
-- ==== Proof.KernelRegion.lean ====
/-
  The region's result array is the attention function of the arrays the region finds.

  A point's stored block, entry by entry, is the attention row of the array index under that entry (`block_entry`): the
  stored value is a row of the loaded blocks, and each loaded block is its array read at the offsets the output block's
  position determines. Hence what a point writes back is its block of `regionResult` (`flushed_eq`); every array index
  lies in the block of the point (its head, its row block), so the blocks cover the array (`covered`) and the array ends
  at `regionResult` (`final`).
-/
import proofs.«152287_j11132555231665_2_alg».proof.Proof.KernelBlocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.Attention

variable (m : (ℓ : Loc nD τ sig) → Buf (Elt Ideal) ℓ) (ρ : Dev nD → PrngReg)

/-- Rows built from equal pieces are equal. -/
theorem rowK_congr {q q' : Fin 64 → EReal} {Kh Kh' Vh Vh' : Fin 2048 → Fin 64 → EReal} {W W' : Fin 64 → Fin 64 → EReal}
    {Bv Bv' : Fin 64 → EReal} {e e' : Fin 64} (hq : q = q') (hK : Kh = Kh') (hV : Vh = Vh') (hW : W = W') (hB : Bv = Bv')
    (he : e = e') : rowK q Kh Vh W Bv e = rowK q' Kh' Vh' W' Bv' e' := by
  subst hq hK hV hW hB he; rfl

/-- An entry of the block a point stores is the attention row of the array index under it. -/
theorem block_entry (c : Dev nD) (t : Fin cfg0.N) (y : S1x1024x64.Idx) :
    Gen.k0_pay1 (F := Ideal) (iblk m c 0 t) (iblk m c 1 t) (iblk m c 2 t) (iblk m c 3 t) (iblk m c 4 t) y
      = regionResult m c (((cfg0.win 5).blk t).view.emb y) := by
  obtain ⟨a0, a1, a2, b0, b1, b2, c0, c1, c2, d0, d1, e0, f0, f1, f2⟩ := idx_facts t
  obtain ⟨u, r, e, rfl⟩ : ∃ (u : Fin 1) (r : Fin 1024) (e : Fin 64), y = ix3 u r e := ⟨y 0, y 1, y 2, eq_ix3 y⟩
  have hu : u.val = 0 := by omega
  refine (Row.pay_apply (iblk m c 0 t) (iblk m c 1 t) (iblk m c 2 t) (iblk m c 3 t) (iblk m c 4 t) u r e).trans ?_
  -- the array index under the entry, by coordinates
  have i0 : ((((cfg0.win 5).blk t).view.emb (ix3 u r e)) 0).val = win0_5.index t (0 : Fin 3) * 1 + 1 * u.val := rfl
  have i1 : ((((cfg0.win 5).blk t).view.emb (ix3 u r e)) 1).val = win0_5.index t (1 : Fin 3) * 1024 + 1 * r.val := rfl
  have i2 : ((((cfg0.win 5).blk t).view.emb (ix3 u r e)) 2).val = win0_5.index t (2 : Fin 3) * 64 + 1 * e.val := rfl
  generalize ((cfg0.win 5).blk t).view.emb (ix3 u r e) = i at i0 i1 i2
  show _ = rowK _ _ _ _ _ _
  refine rowK_congr (funext fun d => ?_) (funext fun k => funext fun d => ?_) (funext fun k => funext fun d => ?_)
    (funext fun e' => funext fun d => ?_) (funext fun e' => ?_) (Fin.ext ?_)
  · exact iblk0_apply m c t _ _ (by show (i 0).val = _ * 1 + 1 * 0; rw [i0, a0, hu])
      (by show (i 1).val = _ * 1024 + 1 * r.val; rw [i1, a1]) (by show d.val = _ * 64 + 1 * d.val; rw [a2]; omega)
  · exact iblk1_apply m c t _ _ (by show (i 0).val = _ * 1 + 1 * 0; rw [i0, b0, hu]) (by show k.val = _ * 2048 + 1 * k.val; rw [b1]; omega)
      (by show d.val = _ * 64 + 1 * d.val; rw [b2]; omega)
  · exact iblk2_apply m c t _ _ (by show (i 0).val = _ * 1 + 1 * 0; rw [i0, c0, hu]) (by show k.val = _ * 2048 + 1 * k.val; rw [c1]; omega)
      (by show d.val = _ * 64 + 1 * d.val; rw [c2]; omega)
  · exact iblk3_apply m c t _ _ (by show e'.val = _ * 64 + 1 * e'.val; rw [d0]; omega) (by show d.val = _ * 64 + 1 * d.val; rw [d1]; omega)
  · exact iblk4_apply m c t _ _ (by show e'.val = _ * 64 + 1 * e'.val; rw [e0]; omega)
  · show e.val = (i 2).val
    rw [i2, f2]; omega

/-- What a point writes back is its block of the result function. -/
theorem flushed_eq (c : Dev nD) (t : Fin cfg0.N) :
    (dats m 0 c).flushed 5 t = ((cfg0.win 5).blk t).view.read (Elt Ideal) (regionResult m c) := by
  show (cfg0.win 5).cut (grid0.coords t) ((dats m 0 c).after 5 t) = _
  rw [after0_5]
  unfold out0_5
  rw [View.canon_unit_zero hz3]
  simp only [View.ld_unit_zero (S := S1x1024x64) hz3, View.ld_unit_zero (S := S1x2048x64) hz3,
    View.ld_unit_zero (S := S64x64) hz2, View.ld_unit_zero (S := S64) hz1]
  funext j
  exact block_entry m c t j

/-- An array index is in a point's output block iff each coordinate is in the block's range. -/
theorem mem_blk (t : Fin cfg0.N) (i : S64x2048x64.Idx) :
    i ∈ ((cfg0.win 5).blk t).view.set ↔ ∀ a : Fin 3, win0_5.index t a * S1x1024x64.size a ≤ (i a).val
      ∧ (i a).val < win0_5.index t a * S1x1024x64.size a + S1x1024x64.size a := by
  show i ∈ ((View.whole main_v3).slice (win0_5.rect t)).set ↔ _
  rw [View.set_slice_whole, Rect.mem_set_unit]
  exact Iff.rfl

/-- Every index of the result array is in the output block of the point of its head and row block. -/
theorem covered (i : S64x2048x64.Idx) :
    ∃ t : Fin cfg0.N, (cfg0.win 5).flush t = true ∧ i ∈ ((cfg0.win 5).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1024 ≤ (i 1).val ∧ (i 1).val < win0_5.index t (1 : Fin 3) * 1024 + 1024
    omega
  | ⟨2, _⟩ =>
    show win0_5.index t (2 : Fin 3) * 64 ≤ (i 2).val ∧ (i 2).val < win0_5.index t (2 : Fin 3) * 64 + 64
    omega

/-- The result array after the region. -/
theorem final (c : Dev nD) : (dats m 0 c).arrAt 5 cfg0.N = regionResult m c :=
  (dats m 0 c).arrAt_eq_of_cover 5 (regionResult m c) (fun t _ => flushed_eq m c t) (covered)

end Cert.KernelIdeal.Region

end
-- ==== Proof.HeadLayout.lean ====
/-
  The kernel walks its grid over [batch·head, query, column]; the arrays the two programs share are laid out
  over [batch, head, query, column]. Flattening (batch, head) into one axis keeps the row-major position, so
  head (b, h) sits at b · 16 + h; unflattening the kernel's result over the flattened layout gives its result
  over the four axes.
-/
import proofs.«152287_j11132555231665_2_alg».proof.Proof.AttentionSpec
import Idealize.ShloMosaic.Lib.Pipeline.Value
import Idealize.ShloMosaic.Lib.ValueIdx

noncomputable section

namespace Cert.Attention

open Idealize.ShloMosaic Idealize.ShloMosaic.ValueIdx

/-- The flattened position of head (b, h): b · 16 + h, below 4 · 16 = 64. -/
abbrev flatHead (b : Fin 4) (h : Fin 16) : Fin 64 := ⟨b.val * 16 + h.val, by omega⟩

/-- The flattened array at (b · 16 + h, s, d) is the four-axis array at (b, h, s, d): the two indices have the
    same row-major position ((b · 16 + h) · 2048 + s) · 64 + d. -/
theorem flatten_apply (X : A4) (hin : (⟨4, ![4, 16, 2048, 64]⟩ : Shape).ShapeCasts ⟨3, ![64, 2048, 64]⟩)
    (b : Fin 4) (h : Fin 16) (s : Fin 2048) (d : Fin 64) :
    shapeCast ⟨3, ![64, 2048, 64]⟩ X hin (ix3 (flatHead b h) s d) = X (ix4 b h s d) :=
  shapeCast_apply X hin _ _ (by
    rw [Shape.rowMajor_val_four, Shape.rowMajor_val_three]
    show ((b.val * 16 + h.val) * 2048 + s.val) * 64 + d.val = ((b.val * 16 + h.val) * 2048 + s.val) * 64 + d.val
    rfl)

/-- The unflattened array at (b, h, s, e) is the three-axis array at (b · 16 + h, s, e). -/
theorem unflatten_apply (Y : A3) (hout : (⟨3, ![64, 2048, 64]⟩ : Shape).ShapeCasts ⟨4, ![4, 16, 2048, 64]⟩)
    (b : Fin 4) (h : Fin 16) (s : Fin 2048) (e : Fin 64) :
    shapeCast ⟨4, ![4, 16, 2048, 64]⟩ Y hout (ix4 b h s e) = Y (ix3 (flatHead b h) s e) :=
  shapeCast_apply Y hout _ _ (by
    rw [Shape.rowMajor_val_four, Shape.rowMajor_val_three]
    show ((b.val * 16 + h.val) * 2048 + s.val) * 64 + e.val = ((b.val * 16 + h.val) * 2048 + s.val) * 64 + e.val
    rfl)

/-- The kernel's result over the flattened layout, computed from the flattened inputs and unflattened, is its
    result over [batch, head, query, column]: row (b · 16 + h, s) of the flattened arrays is row (b, h, s). -/
theorem GK3_of_flattened (Q K V : A4) (W : A2) (B : A1)
    (hin : (⟨4, ![4, 16, 2048, 64]⟩ : Shape).ShapeCasts ⟨3, ![64, 2048, 64]⟩)
    (hout : (⟨3, ![64, 2048, 64]⟩ : Shape).ShapeCasts ⟨4, ![4, 16, 2048, 64]⟩) :
    shapeCast ⟨4, ![4, 16, 2048, 64]⟩
        (GK3 (shapeCast ⟨3, ![64, 2048, 64]⟩ Q hin) (shapeCast ⟨3, ![64, 2048, 64]⟩ K hin)
          (shapeCast ⟨3, ![64, 2048, 64]⟩ V hin) W B) hout
      = GK Q K V W B := by
  funext i
  obtain ⟨b, h, s, e, rfl⟩ : ∃ (b : Fin 4) (h : Fin 16) (s : Fin 2048) (e : Fin 64), i = ix4 b h s e :=
    ⟨i 0, i 1, i 2, i 3, eq_ix4 i⟩
  rw [unflatten_apply]
  show rowK (fun d => shapeCast ⟨3, ![64, 2048, 64]⟩ Q hin (ix3 (flatHead b h) s d))
      (fun k d => shapeCast ⟨3, ![64, 2048, 64]⟩ K hin (ix3 (flatHead b h) k d))
      (fun k d => shapeCast ⟨3, ![64, 2048, 64]⟩ V hin (ix3 (flatHead b h) k d))
      (fun e d => W (ix2 e d)) (fun e => B (ix1 e)) e
    = rowK (fun d => Q (ix4 b h s d)) (fun k d => K (ix4 b h k d)) (fun k d => V (ix4 b h k d))
      (fun e d => W (ix2 e d)) (fun e => B (ix1 e)) e
  simp only [flatten_apply]

end Cert.Attention

end
-- ==== Proof.KernelRun.lean ====
/-
  The kernel's run, read: the result is the attention function of the arguments.

  Before the region the three [4, 16, 2048, 64] arguments are flattened to [64, 2048, 64] (batch and head merged); after
  it the region's [64, 2048, 64] result is unflattened. The region's array is the attention function of the flattened
  arrays, and flattening commutes with it head by head, so the program's result is the attention function `GK` of the
  arguments themselves; the arguments end unchanged.
-/
import proofs.«152287_j11132555231665_2_alg».proof.Proof.KernelRegion
import proofs.«152287_j11132555231665_2_alg».proof.Proof.HeadLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.Attention

variable (m : (ℓ : Loc nD τ sig) → Buf (Elt Ideal) ℓ) (ρ : Dev nD → PrngReg)

/-- The region finds the queries flattened. -/
theorem V_main_v0 (c : Dev nD) : (V m c main_v0 : S64x2048x64.Idx → EReal)
    = shapeCast S64x2048x64 (m ((c : Thread nD τ).loc main_arg0)) Gen.shapeCasts_S4x16x2048x64_S64x2048x64 := by
  show StableHlo.after hostOps0 (fun b => m (c, b)) (Proc.devRef .tc main_v0) = _
  after_results
  rfl

/-- The region finds the keys flattened. -/
theorem V_main_v1 (c : Dev nD) : (V m c main_v1 : S64x2048x64.Idx → EReal)
    = shapeCast S64x2048x64 (m ((c : Thread nD τ).loc main_arg1)) Gen.shapeCasts_S4x16x2048x64_S64x2048x64 := by
  show StableHlo.after hostOps0 (fun b => m (c, b)) (Proc.devRef .tc main_v1) = _
  after_results
  rfl

/-- The region finds the values flattened. -/
theorem V_main_v2 (c : Dev nD) : (V m c main_v2 : S64x2048x64.Idx → EReal)
    = shapeCast S64x2048x64 (m ((c : Thread nD τ).loc main_arg2)) Gen.shapeCasts_S4x16x2048x64_S64x2048x64 := by
  show StableHlo.after hostOps0 (fun b => m (c, b)) (Proc.devRef .tc main_v2) = _
  after_results
  rfl

/-- The program's result buffer after the lines that follow the region. -/
theorem result_eq (c : Dev nD) : Pipeline.afterTail₀ cfgs (dats m) 0 (V0 m) [hostOps1] c main_v4
    = GK (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.devRef .tc main_v3) = regionResult m c :=
    (Pipeline.withArrays_arr spec0 launch0.win.arr_inj c _ _ 5).trans (final m c)
  rw [hw]
  show shapeCast S4x16x2048x64 (regionResult m c) Gen.shapeCasts_S64x2048x64_S4x16x2048x64 = _
  unfold regionResult
  rw [V_main_v0, V_main_v1, V_main_v2, V_main_arg3, V_main_arg4]
  exact GK3_of_flattened _ _ _ _ _ _ _

/-- Every weakly fair execution of the kernel's program terminates with the result buffer at the attention function of
    the arguments and the five arguments unchanged. -/
theorem run : θ_run defs (onTc (τ := τ) (main (F := Ideal))) ⟨m, fun _ => 0, ρ⟩ (fun r => ∀ c : Dev nD,
      r.2.mem ((c.tc : Thread nD τ).loc main_v4) = GK (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Region

end
-- ==== Proof.lean ====
/-
  Scaled dot-product attention with an output projection: a Pallas kernel against its jnp reference, equal at exact
  arithmetic under finite inputs.

  Both programs compute, for every batch b, head h, query row q and output column e,
      out[b,h,q,e] = Σ_d ( Σ_k softmax_k(s)[k] · V[b,h,k,d] ) · W[e,d] + bias[e],   s[k] = (Q[b,h,q,:] · K[b,h,k,:]) / 8,
  the softmax taken with the row maximum subtracted. The reference scales the score after the contraction and divides
  every weight by the row's sum before averaging the values; the kernel scales the query before the contraction and
  divides the unnormalised average once. The two agree because the scale 1/8 and, for real queries and keys, the
  reciprocal of the (positive, real) row sum are nonnegative reals, and a nonnegative real distributes over a finite sum
  of extended reals (`Cert.Attention.GK_eq_GR`); the precondition gives the real queries and keys.

  The kernel's side: its grid walks (batch·head) × two blocks of 1024 query rows over arrays flattened to [64, 2048, 64];
  each point stores its block of one whole-array function, the blocks tile the result, and flattening commutes with the
  function head by head (`Cert.KernelIdeal.Region.run`). The reference's side: its run read operation by operation is the
  same function in the reference's arrangement (`Cert.ReferenceIdeal.RefValue.val_eq_GR`). The kernel's idealization
  rewrote nothing, so `preserves` is trivial; the kernels' frames are the generated ones, the reference's frame its run.
-/
import proofs.«152287_j11132555231665_2_alg».proof.Defs
import proofs.«152287_j11132555231665_2_alg».proof.Proof.Gen.Kernel
import proofs.«152287_j11132555231665_2_alg».proof.Proof.Gen.Kernel.Skeleton
import proofs.«152287_j11132555231665_2_alg».proof.Proof.Gen.Kernel.Launch
import proofs.«152287_j11132555231665_2_alg».proof.Proof.Gen.Kernel.Points
import proofs.«152287_j11132555231665_2_alg».proof.Proof.Gen.Kernel.Frame
import proofs.«152287_j11132555231665_2_alg».proof.Proof.Gen.KernelIdeal
import proofs.«152287_j11132555231665_2_alg».proof.Proof.Gen.KernelIdeal.Skeleton
import proofs.«152287_j11132555231665_2_alg».proof.Proof.Gen.KernelIdeal.Launch
import proofs.«152287_j11132555231665_2_alg».proof.Proof.Gen.KernelIdeal.Points
import proofs.«152287_j11132555231665_2_alg».proof.Proof.Gen.KernelIdeal.Frame
import proofs.«152287_j11132555231665_2_alg».proof.Proof.Gen.ReferenceIdeal
import proofs.«152287_j11132555231665_2_alg».proof.Proof.Gen.Pre_finite_inputs
import proofs.«152287_j11132555231665_2_alg».proof.Proof.Gen.ReferenceIdeal.Run
import proofs.«152287_j11132555231665_2_alg».proof.Proof.Gen.ReferenceIdeal.Read
import proofs.«152287_j11132555231665_2_alg».proof.Proof.ReferenceValue
import proofs.«152287_j11132555231665_2_alg».proof.Proof.AttentionLaw
import proofs.«152287_j11132555231665_2_alg».proof.Proof.FiniteInputs
import proofs.«152287_j11132555231665_2_alg».proof.Proof.KernelRun
import Idealize.ShloMosaic.Adequacy
import Idealize.ShloMosaic.Init

noncomputable section

namespace Cert.Proof

open Idealize.ShloMosaic Idealize.SL.Sem

/-- The kernel as printed runs and leaves its arguments unchanged. -/
theorem frame_Kernel : Cert.frame_Kernel (hKernel := Cert.Kernel.Gen.facts) (hPre_finite_inputs := Cert.Pre_finite_inputs.Gen.facts) :=
  fun m ρ _ => Cert.Kernel.Gen.frame m ρ

/-- So does the kernel at exact arithmetic. -/
theorem frame_KernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ReferenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at one array: the kernel at the attention function `GK` of its arguments (its run), the reference at
    `GR` of arguments that agree (its run, read as the specification), and `GK = GR` on the real queries and keys the
    precondition gives. -/
theorem algebraic : Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => Cert.Attention.GK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.val_eq_GR, (hagree c).1, (hagree c).2.1, (hagree c).2.2.1,
    (hagree c).2.2.2.1, (hagree c).2.2.2.2]
  exact (Cert.Attention.GK_eq_GR _ _ _ _ _ (Cert.FiniteInputs.real_of_pre _ _ _ _ _ (hpre c)).1
    (Cert.FiniteInputs.real_of_pre _ _ _ _ _ (hpre c)).2).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
